-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x1024x32768 : Shape := ⟨4, ![1, 1, 1024, 32768]⟩
abbrev S_ : Shape := ⟨0, ![]⟩

class Facts : Prop where
  bcast_S_S1x1x1024x32768 : S_.BroadcastsInDim S1x1x1024x32768 (![] : Fin 0 → Fin S1x1x1024x32768.rank)
  reducesTo_S1x1x1024x32768_S_d0_1_2_3 : S1x1x1024x32768.ReducesTo [0, 1, 2, 3] S_
  h_S_ : 0 < S_.numel

variable [Facts]

def fn {F : FTy → Type} [FloatOps F] (main_arg0 : FVec F S1x1x1024x32768 .f32) (main_arg1 : FVec F S1x1x1024x32768 .f32) : IVec S_ 1 :=
  let main_v0 : FVec F S1x1x1024x32768 .f32 := Host.absf main_arg0
  let main_cst : FVec F S_ .f32 := constant S_ .f32 0x7F800000#32
  let main_v1 : FVec F S1x1x1024x32768 .f32 := broadcastInDim S1x1x1024x32768 ![] bcast_S_S1x1x1024x32768 main_cst
  let main_v2 : IVec S1x1x1024x32768 1 := cmpf .olt main_v0 main_v1
  let main_c : IVec S_ 1 := constantI S_ 1 1#1
  let main_v3 : IVec S_ 1 := (fun x v => Host.reduce IntOp.andi x v reducesTo_S1x1x1024x32768_S_d0_1_2_3 h_S_) main_v2 main_c
  let main_v4 : FVec F S1x1x1024x32768 .f32 := Host.absf main_arg1
  let main_cst_0 : FVec F S_ .f32 := constant S_ .f32 0x7F800000#32
  let main_v5 : FVec F S1x1x1024x32768 .f32 := broadcastInDim S1x1x1024x32768 ![] bcast_S_S1x1x1024x32768 main_cst_0
  let main_v6 : IVec S1x1x1024x32768 1 := cmpf .olt main_v4 main_v5
  let main_c_1 : IVec S_ 1 := constantI S_ 1 1#1
  let main_v7 : IVec S_ 1 := (fun x v => Host.reduce IntOp.andi x v reducesTo_S1x1x1024x32768_S_d0_1_2_3 h_S_) main_v6 main_c_1
  let main_v8 : IVec S_ 1 := andi main_v3 main_v7
  main_v8
-- ==== Kernel.lean ====
abbrev S1x1x1024x32768 : Shape := ⟨4, ![1, 1, 1024, 32768]⟩
abbrev S1024x32768 : Shape := ⟨2, ![1024, 32768]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S1x1x1024x32768, .f32⟩
  | .hbm, ⟨1, _⟩ => ⟨S1x1x1024x32768, .f32⟩
  | .hbm, ⟨2, _⟩ => ⟨S1024x32768, .f32⟩
  | .hbm, ⟨3, _⟩ => ⟨S1024x32768, .f32⟩
  | .hbm, ⟨4, _⟩ => ⟨S1024x32768, .f32⟩
  | .hbm, ⟨5, _⟩ => ⟨S1x1x1024x32768, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S1x1x1024x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x1x1024x32768_S1024x32768 : S1x1x1024x32768.ShapeCasts S1024x32768
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S1024x32768_S1x1x1024x32768 : S1024x32768.ShapeCasts S1x1x1024x32768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x32768.size a
  hwx0_0 : ∀ i : grid0.Coords, EltTy.bits .f32 = 32 ∨ (Rect.block (s := S1024x32768) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S1024x32768.size a
  hwx0_1 : ∀ i : grid0.Coords, EltTy.bits .f32 = 32 ∨ (Rect.block (s := S1024x32768) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S1024x32768.size a
  hwx0_2 : ∀ i : grid0.Coords, EltTy.bits .f32 = 32 ∨ (Rect.block (s := S1024x32768) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S1x1x1024x32768 : Shape := ⟨4, ![1, 1, 1024, 32768]⟩

abbrev nBuf : Space → Nat
  | .hbm => 3
  | .vmem => 0
  | .smem => 0
  | _ => 0

abbrev bufTy : (tb : Table) → Fin (tcTables nBuf tb) → BufTy
  | .hbm, ⟨0, _⟩ => ⟨S1x1x1024x32768, .f32⟩
  | .hbm, ⟨1, _⟩ => ⟨S1x1x1024x32768, .f32⟩
  | .hbm, ⟨2, _⟩ => ⟨S1x1x1024x32768, .f32⟩
  | _, _ => ⟨S1x1x1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where

variable [Facts₀]

class Facts : Prop extends Facts₀ where

variable [Facts]
-- ==== Proof.Tiles.lean ====
/-
  The multiply kernel's output array, tile by tile.

  The kernel runs on a 2 x 16 grid over [1024, 32768] arrays cut into [512, 2048] tiles. At grid point (i, j) it
  loads tile (i, j) of each of its two operands, multiplies the two tiles entry by entry and stores the product as
  tile (i, j) of the output. All three index maps are the identity (i, j) -> (i, j), so the entry of the output at
  array position (r, c) is computed at the one grid point (r / 512, c / 2048), from the two operand entries at the
  same position (r, c). The 32 tiles fill the array, hence after the last grid point the output array is the
  entry-by-entry product of the two operand arrays as the kernel found them. Nothing here depends on what a float
  is: the statement holds for any float interpretation.
-/
import proofs.«136704_j77661598646505_2_alg».proof.Proof.Gen.KernelIdeal.Frame
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's loads and its store start at the corner of the tile. -/
theorem corner : (![0, 0] : Fin 2 → Nat) = fun _ => 0 := funext fun a => by fin_cases a <;> rfl

/-- The entry-by-entry product of two [1024, 32768] arrays. -/
abbrev product (a0 a1 : S1024x32768.Idx → Elt F .f32) : S1024x32768.Idx → Elt F .f32 :=
  fun i => FloatOps.mulf (a0 i) (a1 i)

/-- What the body stores is the entry-by-entry product of the two tiles it loaded (its two shape casts are to the
    tile's own shape). -/
theorem stored_tile (x0 x1 : Vec F S512x2048 .f32) : k0_pay1 x0 x1 = mulf x0 x1 := by
  unfold k0_pay1
  simp only [shapeCast_self]

/-- At every grid point the three windows sit on the same tile, whose row index is 0 or 1 and whose column index is
    at most 15. -/
theorem same_tile : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 1
    ∧ win0_2.index t (1 : Fin 2) ≤ 15 :=
  (by decide +kernel : ∀ t : Fin grid0.N, _)

/-- Each of the 2 x 16 tiles is the output tile of some grid point. -/
theorem every_tile : ∀ (q0 : Fin 2) (q1 : Fin 16), ∃ t : Fin cfg0.N, win0_2.index t = ![q0.val, q1.val] :=
  (by decide +kernel : ∀ (q0 : Fin 2) (q1 : Fin 16), ∃ t : Fin grid0.N, win0_2.index t = ![q0.val, q1.val])

/-- What grid point `t` writes back is tile `t` of the product of the two operand arrays as the kernel found them:
    entry `j` of the stored tile multiplies entry `j` of the two loaded tiles, and entry `j` of tile `t` sits at the
    same array position in all three arrays. -/
theorem written_tile (c : Dev nD) (t : Fin cfg0.N) :
    (dats m 0 c).flushed 2 t
      = ((cfg0.win 2).blk t).view.read (Elt F) (product (V m c main_v0) (V m c main_v1)) := by
  show (cfg0.win 2).cut (grid0.coords t) ((dats m 0 c).after 2 t) = _
  rw [after0_2]
  unfold out0_2
  rw [View.canon_unit_zero corner]
  simp only [View.ld_unit_zero (S := S512x2048) corner]
  rw [stored_tile]
  obtain ⟨e0, e1, e2, e3, -, -⟩ := same_tile t
  funext j
  show FloatOps.mulf (V m c main_v0 (((cfg0.win 0).blk t).view.emb j)) (V m c main_v1 (((cfg0.win 1).blk t).view.emb j))
    = FloatOps.mulf (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega
  rw [h0, h1]

/-- An array position lies in grid point `t`'s output tile iff, on each axis, it lies in the tile's range. -/
theorem in_tile (t : Fin cfg0.N) (i : S1024x32768.Idx) :
    i ∈ ((cfg0.win 2).blk t).view.set
      ↔ ∀ a : Fin 2, win0_2.index t a * S512x2048.size a ≤ (i a).val
          ∧ (i a).val < win0_2.index t a * S512x2048.size a + S512x2048.size a := by
  show i ∈ ((View.whole main_v2).slice (win0_2.rect t)).set ↔ _
  rw [View.set_slice_whole, Rect.mem_set_unit]
  exact Iff.rfl

/-- The tiles fill the array: position (r, c) lies in tile (r / 512, c / 2048). -/
theorem tiles_cover (i : S1024x32768.Idx) :
    ∃ t : Fin cfg0.N, (cfg0.win 2).flush t = true ∧ i ∈ ((cfg0.win 2).blk t).view.set := by
  have hi0 : (i 0).val < 1024 := (i 0).isLt
  have hi1 : (i 1).val < 32768 := (i 1).isLt
  obtain ⟨t, ht⟩ := every_tile ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [in_tile]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- After the last grid point the output array is the product of the two operand arrays as the kernel found them. -/
theorem product_array (c : Dev nD) :
    (dats m 0 c).arrAt 2 cfg0.N = product (V m c main_v0) (V m c main_v1) :=
  (dats m 0 c).arrAt_eq_of_cover 2 _ (fun t _ => written_tile m c t) tiles_cover

end Cert.KernelIdeal.Tiles

end
-- ==== Proof.LibReshapeRoundTrip.lean ====
/-
  A reshape keeps the row-major order of the elements, so reshaping two arrays to another shape, combining them
  element by element there, and reshaping the result back is the element-by-element combination of the two arrays
  in their own shape: the two reshapes are inverse re-indexings, and a pointwise operation does not see a
  re-indexing. Stated for any two shapes with the same number of elements, any element type and any binary
  operation; also the one-array form (a pointwise map) and the bare round trip at an index.
-/
import Idealize.ShloMosaic.Lib.Pipeline.Value

noncomputable section

namespace Idealize.ShloMosaic.ReshapeRoundTrip

open Idealize.ShloMosaic

variable {s t : Shape} {α β γ : Type}

/-- The index a reshape to `t` and back to `s` reads is the index itself. -/
theorem reshapeEquiv_roundTrip (h : s.ShapeCasts t) (h' : t.ShapeCasts s) (j : s.Idx) :
    Shape.reshapeEquiv h (Shape.reshapeEquiv h' j) = j := by
  rw [Shape.reshapeEquiv_reshapeEquiv, Shape.reshapeEquiv_self]

/-- Reshape `a` and `b` from `s` to `t`, combine them there element by element with `f`, reshape back to `s`: the
    result is `f (a j) (b j)` at every index `j` of `s`. -/
theorem shapeCast_zipWith_shapeCast (f : α → β → γ) (a : s.Idx → α) (b : s.Idx → β)
    (h : s.ShapeCasts t) (h' : t.ShapeCasts s) :
    shapeCast s (fun i => f (shapeCast t a h i) (shapeCast t b h i)) h' = fun j => f (a j) (b j) := by
  funext j
  show f (a (Shape.reshapeEquiv h (Shape.reshapeEquiv h' j))) (b (Shape.reshapeEquiv h (Shape.reshapeEquiv h' j))) = _
  rw [reshapeEquiv_roundTrip]

/-- The one-array form: a pointwise map commutes with the round trip. -/
theorem shapeCast_map_shapeCast (f : α → β) (a : s.Idx → α) (h : s.ShapeCasts t) (h' : t.ShapeCasts s) :
    shapeCast s (fun i => f (shapeCast t a h i)) h' = fun j => f (a j) := by
  funext j
  show f (a (Shape.reshapeEquiv h (Shape.reshapeEquiv h' j))) = _
  rw [reshapeEquiv_roundTrip]

end Idealize.ShloMosaic.ReshapeRoundTrip

end
-- ==== Proof.HostSides.lean ====
/-
  The host operations around the multiply kernel.

  Before the kernel the program reshapes each [1, 1, 1024, 32768] argument to [1024, 32768]; the kernel's first
  operand is the reshaped first argument, its second operand the reshaped second argument. After the kernel the
  program reshapes the kernel's [1024, 32768] output back to [1, 1, 1024, 32768], and that is the program's result.
  With the output array being the entry-by-entry product of the two operands, and a reshape being a re-indexing
  that a round trip undoes, the result is the entry-by-entry product of the two arguments.
-/
import proofs.«136704_j77661598646505_2_alg».proof.Proof.Tiles
import proofs.«136704_j77661598646505_2_alg».proof.Proof.LibReshapeRoundTrip
import Idealize.ShloMosaic.Lib.StableHlo.Run

noncomputable section

namespace Cert.KernelIdeal.HostSides

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The kernel's first operand is the first argument reshaped to [1024, 32768]. -/
theorem first_operand (c : Dev nD) :
    (V m c main_v0 : S1024x32768.Idx → Elt F .f32)
      = shapeCast S1024x32768 (m ((c : Thread nD τ).loc main_arg0)) Facts₀.shapeCasts_S1x1x1024x32768_S1024x32768 := by
  show StableHlo.after hostOps0 (fun b => m (c, b)) (Proc.devRef .tc main_v0) = _
  after_results
  rfl

/-- The kernel's second operand is the second argument reshaped to [1024, 32768]. -/
theorem second_operand (c : Dev nD) :
    (V m c main_v1 : S1024x32768.Idx → Elt F .f32)
      = shapeCast S1024x32768 (m ((c : Thread nD τ).loc main_arg1)) Facts₀.shapeCasts_S1x1x1024x32768_S1024x32768 := by
  show StableHlo.after hostOps0 (fun b => m (c, b)) (Proc.devRef .tc main_v1) = _
  after_results
  rfl

/-- The program's result is the kernel's output array reshaped to [1, 1, 1024, 32768]. -/
theorem result_reshaped (c : Dev nD) :
    (Pipeline.afterTail₀ cfgs (dats m) 0 (V0 m) [hostOps1] c main_v3 : S1x1x1024x32768.Idx → Elt F .f32)
      = shapeCast S1x1x1024x32768 ((dats m 0 c).arrAt 2 cfg0.N) Facts₀.shapeCasts_S1024x32768_S1x1x1024x32768 := by
  unfold Pipeline.afterTail₀
  show StableHlo.after hostOps1 _ (Proc.devRef .tc main_v3) = _
  after_results
  exact congrArg
    (fun x : S1024x32768.Idx → Elt F .f32 =>
      shapeCast S1x1x1024x32768 x Facts₀.shapeCasts_S1024x32768_S1x1x1024x32768)
    (Pipeline.withArrays_arr spec0 launch0.win.arr_inj c (V0 m c) (fun w => (dats m 0 c).arrAt w cfg0.N) 2)

/-- The product of the two reshaped arguments, reshaped back, is the product of the two arguments. -/
theorem product_reshaped (a0 a1 : S1x1x1024x32768.Idx → Elt F .f32) :
    shapeCast S1x1x1024x32768
        (Tiles.product (shapeCast S1024x32768 a0 Facts₀.shapeCasts_S1x1x1024x32768_S1024x32768)
          (shapeCast S1024x32768 a1 Facts₀.shapeCasts_S1x1x1024x32768_S1024x32768))
        Facts₀.shapeCasts_S1024x32768_S1x1x1024x32768
      = mulf a0 a1 :=
  ReshapeRoundTrip.shapeCast_zipWith_shapeCast (fun x y : Elt F .f32 => FloatOps.mulf x y) a0 a1 _ _

/-- Every weakly fair execution of the program terminates with its result the entry-by-entry product of its two
    arguments, and the arguments as they were. -/
theorem run : θ_run defs (onTc (τ := τ) (main (F := F))) ⟨m, fun _ => 0, ρ⟩ fun r => ∀ c : Dev nD,
      r.2.mem ((c : Thread nD τ).loc main_v3)
        = mulf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨by
      rw [(h c).2 main_v3 (Pipeline.mem_restRefs_of main_v3 (by decide) (by decide)), result_reshaped,
        Tiles.product_array, first_operand, second_operand]
      exact product_reshaped _ _,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.HostSides

end
-- ==== Proof.lean ====
/-
  The kernel computes h_t = Abar * h_{t-1}: it reshapes its two [1, 1, 1024, 32768] arguments to [1024, 32768],
  multiplies them entry by entry tile by tile ([512, 2048] tiles on a 2 x 16 grid, every index map the identity),
  and reshapes the product back. The reference multiplies the two arguments entry by entry. Both results are the one
  function  i ↦ abar i * hidden i  of the arguments: a reshape only re-indexes, and the round trip of the two
  reshapes is the identity, so no law of the extended reals is needed beyond the multiplication being the same
  operation on both sides; in particular the finiteness of the inputs is never used.

  The three frames are the generated ones (the reference's is its generated run with the result dropped); the
  idealization rewrote nothing, so `preserves` is trivial; `algebraic` sets the kernel's run (Proof/HostSides.lean
  over Proof/Tiles.lean) beside the reference's generated run.
-/
import proofs.«136704_j77661598646505_2_alg».proof.Defs
import proofs.«136704_j77661598646505_2_alg».proof.Proof.Gen.Kernel
import proofs.«136704_j77661598646505_2_alg».proof.Proof.Gen.Kernel.Skeleton
import proofs.«136704_j77661598646505_2_alg».proof.Proof.Gen.Kernel.Launch
import proofs.«136704_j77661598646505_2_alg».proof.Proof.Gen.Kernel.Points
import proofs.«136704_j77661598646505_2_alg».proof.Proof.Gen.Kernel.Frame
import proofs.«136704_j77661598646505_2_alg».proof.Proof.Gen.KernelIdeal
import proofs.«136704_j77661598646505_2_alg».proof.Proof.Gen.KernelIdeal.Skeleton
import proofs.«136704_j77661598646505_2_alg».proof.Proof.Gen.KernelIdeal.Launch
import proofs.«136704_j77661598646505_2_alg».proof.Proof.Gen.KernelIdeal.Points
import proofs.«136704_j77661598646505_2_alg».proof.Proof.Gen.KernelIdeal.Frame
import proofs.«136704_j77661598646505_2_alg».proof.Proof.Gen.ReferenceIdeal
import proofs.«136704_j77661598646505_2_alg».proof.Proof.Gen.Pre_finite_inputs
import proofs.«136704_j77661598646505_2_alg».proof.Proof.Gen.ReferenceIdeal.Run
import proofs.«136704_j77661598646505_2_alg».proof.Proof.Gen.ReferenceIdeal.Read
import proofs.«136704_j77661598646505_2_alg».proof.Proof.HostSides
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the two arguments, the kernel and the reference both end with the entry-by-entry
    product of the arguments: the kernel by multiplying tile by tile between two inverse reshapes, the reference by
    one multiplication of the whole arrays. -/
theorem algebraic : Cert.algebraic_KernelIdeal_ReferenceIdeal := by
  intro m ρ m' ρ' _ hagree
  refine ⟨_, Cert.KernelIdeal.HostSides.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
